-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S4096 : Shape := ⟨1, ![4096]⟩
abbrev S1600000 : Shape := ⟨1, ![1600000]⟩
abbrev S256x64 : Shape := ⟨2, ![256, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S64x128 .f32) (main_arg7 : FVec F S128 .f32) (main_arg8 : FVec F S128x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_v33

def fn {F : FTy → Type} [FloatOps F] (main_arg0 : FVec F S100000x256 .f32) (main_arg1 : IVec S2x1600000 32) (main_arg2 : IVec S4096 32) (main_arg3 : FVec F S1600000 .f32) (main_arg4 : FVec F S256x64 .f32) (main_arg5 : FVec F S64 .f32) (main_arg6 : FVec F S64x128 .f32) (main_arg7 : FVec F S128 .f32) (main_arg8 : FVec F S128x1 .f32) (main_arg9 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x256 : Shape := ⟨2, ![100000, 256]⟩
abbrev S2x1600000 : Shape := ⟨2, ![2, 1600000]⟩
abbrev S4096 : Shape := ⟨1, ![4096]⟩
abbrev S1600000 : Shape := ⟨1, ![1600000]⟩
abbrev S256x64 : Shape := ⟨2, ![256, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S4000x256 : Shape := ⟨2, ![4000, 256]⟩
abbrev S4000x64 : Shape := ⟨2, ![4000, 64]⟩
abbrev S1700000x64 : Shape := ⟨2, ![1700000, 64]⟩
abbrev S1x64 : Shape := ⟨2, ![1, 64]⟩
abbrev S100000x128 : Shape := ⟨2, ![100000, 128]⟩
abbrev S4000x128 : Shape := ⟨2, ![4000, 128]⟩
abbrev S1700000x128 : Shape := ⟨2, ![1700000, 128]⟩
abbrev S1x128 : Shape := ⟨2, ![1, 128]⟩
abbrev S4096x1 : Shape := ⟨2, ![4096, 1]⟩
abbrev S4096x128 : Shape := ⟨2, ![4096, 128]⟩
abbrev S1x1 : Shape := ⟨2, ![1, 1]⟩

abbrev nBuf : Space → Nat
  | .hbm => 113
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S4096, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S100000x128, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S4096, .i32⟩
  | .hbm, ⟨94, _⟩ => ⟨S4096, .i1⟩
  | .hbm, ⟨95, _⟩ => ⟨S_, .i32⟩
  | .hbm, ⟨96, _⟩ => ⟨S4096, .i32⟩
  | .hbm, ⟨97, _⟩ => ⟨S4096, .i32⟩
  | .hbm, ⟨98, _⟩ => ⟨S4096, .i32⟩
  | .hbm, ⟨99, _⟩ => ⟨S4096x1, .i32⟩
  | .hbm, ⟨100, _⟩ => ⟨S4096x128, .f32⟩
  | .hbm, ⟨101, _⟩ => ⟨S4096x1, .f32⟩
  | .hbm, ⟨102, _⟩ => ⟨S1x1, .f32⟩
  | .hbm, ⟨103, _⟩ => ⟨S4096x1, .f32⟩
  | .hbm, ⟨104, _⟩ => ⟨S4096x1, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096x1, .f32⟩
  | .hbm, ⟨112, _⟩ => ⟨S4096x1, .f32⟩
  | .local _ .vmem, ⟨0, _⟩ => ⟨S4000x256, .f32⟩
  | .local _ .vmem, ⟨1, _⟩ => ⟨S4000x256, .f32⟩
  | .local _ .vmem, ⟨2, _⟩ => ⟨S256x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S64x128, .f32⟩
  | .local _ .vmem, ⟨8, _⟩ => ⟨S4000x128, .f32⟩
  | .local _ .vmem, ⟨9, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_14 : Ref sig .tc := ⟨.hbm, 107, rfl⟩
abbrev main_v79 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_v82 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x64_S4000x64_1_0_0_1_n_n_wf : DotDims.WF S4000x256 S256x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x128_S4000x128_1_0_0_1_n_n_wf : DotDims.WF S4000x64 S64x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S4096x1_S4096x128_1_0_n_n_0_1_1128_wf : GatherDims.WF S100000x128 S4096x1 S4096x128 [1] [0] [] [0] [] 1 ![1, 128]
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S4096 : Shape := ⟨1, ![4096]⟩
abbrev S1600000 : Shape := ⟨1, ![1600000]⟩
abbrev S256x64 : Shape := ⟨2, ![256, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x128 : Shape := ⟨2, ![100000, 128]⟩
abbrev S1700000x128 : Shape := ⟨2, ![1700000, 128]⟩
abbrev S1x128 : Shape := ⟨2, ![1, 128]⟩
abbrev S4096x1 : Shape := ⟨2, ![4096, 1]⟩
abbrev S4096x128 : Shape := ⟨2, ![4096, 128]⟩
abbrev S1x1 : Shape := ⟨2, ![1, 1]⟩

abbrev nBuf : Space → Nat
  | .hbm => 154
  | .vmem => 0
  | .smem => 0
  | _ => 0

abbrev hbmTy0_0 (i : Nat) : BufTy := match i % 128 with
  | 0 => ⟨S100000x256, .f32⟩
  | 1 => ⟨S2x1600000, .i32⟩
  | 2 => ⟨S4096, .i32⟩
  | 3 => ⟨S1600000, .f32⟩
  | 4 => ⟨S256x64, .f32⟩
  | 5 => ⟨S64, .f32⟩
  | 6 => ⟨S64x128, .f32⟩
  | 7 => ⟨S128, .f32⟩
  | 8 => ⟨S128x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S100000x64, .f32⟩
  | 15 => ⟨S100000, .i32⟩
  | 16 => ⟨S1700000, .i32⟩
  | 17 => ⟨S1700000, .i32⟩
  | 18 => ⟨S_, .f32⟩
  | 19 => ⟨S100000, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S1700000x1, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x64, .f32⟩
  | 64 => ⟨S1700000x64, .f32⟩
  | 65 => ⟨S_, .f32⟩
  | 66 => ⟨S100000x64, .f32⟩
  | 67 => ⟨S1700000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x128, .f32⟩
  | 76 => ⟨S100000, .i32⟩
  | 77 => ⟨S1700000, .i32⟩
  | 78 => ⟨S1700000, .i32⟩
  | 79 => ⟨S_, .f32⟩
  | 80 => ⟨S100000, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S1700000x1, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x128, .f32⟩
  | 124 => ⟨S1700000x128, .f32⟩
  | 125 => ⟨S1700000x128, .f32⟩
  | 126 => ⟨S_, .f32⟩
  | 127 => ⟨S100000x128, .f32⟩
  | _ => ⟨S100000x256, .f32⟩

abbrev hbmTy0_1 (i : Nat) : BufTy := match i % 128 with
  | 0 => ⟨S1700000x1, .i32⟩
  | 1 => ⟨S100000x128, .f32⟩
  | 2 => ⟨S1x128, .f32⟩
  | 3 => ⟨S100000x128, .f32⟩
  | 4 => ⟨S100000x128, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S4096x128, .f32⟩
  | 14 => ⟨S4096x1, .f32⟩
  | 15 => ⟨S1x1, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_17 : Ref sig .tc := ⟨.hbm, 115, rfl⟩
abbrev main_v80 : Ref sig .tc := ⟨.hbm, 116, rfl⟩
abbrev main_v81 : Ref sig .tc := ⟨.hbm, 117, rfl⟩
abbrev main_c_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_20 : Ref sig .tc := ⟨.hbm, 133, rfl⟩
abbrev main_v95 : Ref sig .tc := ⟨.hbm, 134, rfl⟩
abbrev main_v96 : Ref sig .tc := ⟨.hbm, 135, rfl⟩
abbrev main_c_21 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_22 : Ref sig .tc := ⟨.hbm, 148, rfl⟩
abbrev main_v108 : Ref sig .tc := ⟨.hbm, 149, rfl⟩
abbrev main_v109 : Ref sig .tc := ⟨.hbm, 150, rfl⟩
abbrev main_cst_23 : Ref sig .tc := ⟨.hbm, 151, rfl⟩
abbrev main_v110 : Ref sig .tc := ⟨.hbm, 152, rfl⟩
abbrev main_v111 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S4096x1_S4096x128_1_0_n_n_0_1_1128_wf : GatherDims.WF S100000x128 S4096x1 S4096x128 [1] [0] [] [0] [] 1 ![1, 128]
  dot_S4096x128_S128x1_S4096x1_1_0_0_1_n_n_wf : DotDims.WF S4096x128 S128x1 S4096x1 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

class Facts : Prop extends Facts₀ where

variable [Facts]
-- ==== Proof.Whole.lean ====
/-
  The kernel program's run, with every buffer named.

  The program is seven segments in a row: three stretches of array operations, the first dense product (a grid of
  25 row blocks), a stretch, the second dense product, and a last stretch. Each segment takes the contents of all the
  buffers that live for the whole program from one valuation to the next, `W0` (the launch memory) to `W7`. So every
  weakly fair execution terminates, nothing faulting, and in the final state EVERY such buffer holds what `W7` says —
  the result and the arguments among them. The frame statement keeps of this only the arguments; a claim about the
  result's value starts here.
-/
import proofs.«155823_j16140487098561_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that lives for the
    whole program at the last valuation of the fold through the segments. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- A buffer that lives for the whole program, read in the final state. -/
theorem final_at {r : PUnit × MemSt nD τ sig (Elt F)} (h : ∀ c : Dev nD, ∀ b ∈ Pipeline.ucRefs τ sig, r.2.mem (((c : Thread nD τ)).1, b) = W7 m ρ c b)
    (c : Dev nD) (b : Ref sig .tc) (hb : ¬ (Proc.devRef .tc b : DevRef τ sig).isScoped) :
    r.2.mem ((c : Thread nD τ).loc b) = W7 m ρ c (Proc.devRef .tc b) :=
  h c _ (mem_uc b hb)

end Cert.KernelIdeal.Whole

end
-- ==== Proof.Graph.lean ====
/-
  The graph convolution as functions of arrays.

  Both programs compute, over 100000 nodes and 1600000 weighted edges to which one self-loop per node is added,
    out = logistic (H2[ji] · Wl + bl),   H2 = A (relu (A (X · W1) + b1) · W2) + b2,
  where `A` sends a node-by-feature matrix `M` to the matrix whose row `v` is the sum, over the edges `e` arriving at
  `v`, of `norm e` times row `src e` of `M`. They differ only in how the two dense products `X · W1` and
  `relu (…) · W2` are computed, so everything around those products is named here once, as the very composition of
  array operations both programs print: the source, destination and weight lists with their self-loops, the edge
  normalisation, the two aggregations (widths 64 and 128) and the read-out. Nothing is proved in this file.
-/
import proofs.«155823_j16140487098561_2_alg».proof.KernelIdeal
import proofs.«155823_j16140487098561_2_alg».proof.Proof.Gen.KernelIdeal

noncomputable section

namespace Cert.KernelIdeal.Graph

open Idealize.ShloMosaic Idealize.SL.Sem Cert.KernelIdeal Cert.KernelIdeal.Facts₀ Cert.KernelIdeal.Facts

variable {F : FTy → Type} [FloatOps F]

/-- The edge sources followed by every node once: each node gets a self-loop, so the list has one entry per edge and then one per node. -/
def srcOf (ei : (⟨S2x1600000, .i32⟩ : BufTy).Contents (Elt F)) :
    (⟨S1700000, .i32⟩ : BufTy).Contents (Elt F) :=
  (((fun a b => concatenate S1700000 0 [⟨S1600000, a⟩, ⟨S100000, b⟩] concatenates_S1600000_S100000_S1700000_d0)) (shapeCast _ (((extractStridedSlice S1x1600000 ![0, 0] · slices_S2x1600000_S1x1600000_0_0)) ei) shapeCasts_S1x1600000_S1600000) (iotaInDim S100000 32 0))

/-- The edge destinations followed by every node once (the self-loops' other end). -/
def dstOf (ei : (⟨S2x1600000, .i32⟩ : BufTy).Contents (Elt F)) :
    (⟨S1700000, .i32⟩ : BufTy).Contents (Elt F) :=
  (((fun a b => concatenate S1700000 0 [⟨S1600000, a⟩, ⟨S100000, b⟩] concatenates_S1600000_S100000_S1700000_d0)) (shapeCast _ (((extractStridedSlice S1x1600000 ![1, 0] · slices_S2x1600000_S1x1600000_1_0)) ei) shapeCasts_S1x1600000_S1600000) (iotaInDim S100000 32 0))

/-- The edge weights followed by weight one for every self-loop. -/
def wgtOf (ec : (⟨S1600000, .f32⟩ : BufTy).Contents (Elt F)) :
    (⟨S1700000, .f32⟩ : BufTy).Contents (Elt F) :=
  (((fun a b => concatenate S1700000 0 [⟨S1600000, a⟩, ⟨S100000, b⟩] concatenates_S1600000_S100000_S1700000_d0)) ec ((broadcastInDim S100000 ![] bcast_S_S100000) (constant S_ .f32 0x3F800000#32)))

/-- The symmetric normalisation of the weighted graph: with `deg` the sum of the weights arriving at each node and `dis = deg^(-1/2)` where `deg > 0` and `0` elsewhere, edge `e` from `s e` to `d e` of weight `w e` gets `dis (s e) * w e * dis (d e)`; a negative index counts from the end. -/
def normOf (s : (⟨S1700000, .i32⟩ : BufTy).Contents (Elt F)) (d : (⟨S1700000, .i32⟩ : BufTy).Contents (Elt F)) (w : (⟨S1700000, .f32⟩ : BufTy).Contents (Elt F)) :
    (⟨S1700000, .f32⟩ : BufTy).Contents (Elt F) :=
  ((mulf) ((mulf) (((fun x i => Host.gather gather_S100000_S1700000x1_S1700000_n_0_n_n_0_1_1 x i)) (select ((cmpf .ogt) (((fun x i u => Host.scatterAdd scatter_S100000_S1700000x1_S1700000_n_0_0_1 x i u)) ((broadcastInDim S100000 ![] bcast_S_S100000) (constant S_ .f32 0x00000000#32)) ((broadcastInDim S1700000x1 ![0] bcast_S1700000_S1700000x1_0) d) w) ((broadcastInDim S100000 ![] bcast_S_S100000) (constant S_ .f32 0x00000000#32))) ((Host.rsqrt) (((fun x i u => Host.scatterAdd scatter_S100000_S1700000x1_S1700000_n_0_0_1 x i u)) ((broadcastInDim S100000 ![] bcast_S_S100000) (constant S_ .f32 0x00000000#32)) ((broadcastInDim S1700000x1 ![0] bcast_S1700000_S1700000x1_0) d) w)) ((broadcastInDim S100000 ![] bcast_S_S100000) (id (constant S_ .f32 0x00000000#32)))) ((broadcastInDim S1700000x1 ![0] bcast_S1700000_S1700000x1_0) ((select) ((cmpi .slt) s ((broadcastInDim S1700000 ![] bcast_S_S1700000) (constantI S_ 32 0#32))) ((addi) s ((broadcastInDim S1700000 ![] bcast_S_S1700000) (constantI S_ 32 100000#32))) s))) w) (((fun x i => Host.gather gather_S100000_S1700000x1_S1700000_n_0_n_n_0_1_1 x i)) (select ((cmpf .ogt) (((fun x i u => Host.scatterAdd scatter_S100000_S1700000x1_S1700000_n_0_0_1 x i u)) ((broadcastInDim S100000 ![] bcast_S_S100000) (constant S_ .f32 0x00000000#32)) ((broadcastInDim S1700000x1 ![0] bcast_S1700000_S1700000x1_0) d) w) ((broadcastInDim S100000 ![] bcast_S_S100000) (constant S_ .f32 0x00000000#32))) ((Host.rsqrt) (((fun x i u => Host.scatterAdd scatter_S100000_S1700000x1_S1700000_n_0_0_1 x i u)) ((broadcastInDim S100000 ![] bcast_S_S100000) (constant S_ .f32 0x00000000#32)) ((broadcastInDim S1700000x1 ![0] bcast_S1700000_S1700000x1_0) d) w)) ((broadcastInDim S100000 ![] bcast_S_S100000) (id (constant S_ .f32 0x00000000#32)))) ((broadcastInDim S1700000x1 ![0] bcast_S1700000_S1700000x1_0) ((select) ((cmpi .slt) d ((broadcastInDim S1700000 ![] bcast_S_S1700000) (constantI S_ 32 0#32))) ((addi) d ((broadcastInDim S1700000 ![] bcast_S_S1700000) (constantI S_ 32 100000#32))) d))))

/-- One aggregation at width 64: every edge carries its normalised weight times the source node's row of `xw`, the rows arriving at a node are added up, and the bias row is added to every node. -/
def layer64 (n : (⟨S1700000, .f32⟩ : BufTy).Contents (Elt F)) (s : (⟨S1700000, .i32⟩ : BufTy).Contents (Elt F)) (d : (⟨S1700000, .i32⟩ : BufTy).Contents (Elt F)) (xw : (⟨S100000x64, .f32⟩ : BufTy).Contents (Elt F)) (b : (⟨S64, .f32⟩ : BufTy).Contents (Elt F)) :
    (⟨S100000x64, .f32⟩ : BufTy).Contents (Elt F) :=
  ((addf) (((fun x i u => Host.scatterAdd scatter_S100000x64_S1700000x1_S1700000x64_1_0_0_1 x i u)) ((broadcastInDim S100000x64 ![] bcast_S_S100000x64) (constant S_ .f32 0x00000000#32)) ((broadcastInDim S1700000x1 ![0] bcast_S1700000_S1700000x1_0) d) ((mulf) ((broadcastInDim S1700000x64 ![0, 1] bcast_S1700000x1_S1700000x64_0_1) ((broadcastInDim S1700000x1 ![0] bcast_S1700000_S1700000x1_0) n)) (((fun x i => Host.gather gather_S100000x64_S1700000x1_S1700000x64_1_0_n_n_0_1_164 x i)) xw ((broadcastInDim S1700000x1 ![0] bcast_S1700000_S1700000x1_0) ((select) ((cmpi .slt) s ((broadcastInDim S1700000 ![] bcast_S_S1700000) (constantI S_ 32 0#32))) ((addi) s ((broadcastInDim S1700000 ![] bcast_S_S1700000) (constantI S_ 32 100000#32))) s))))) ((broadcastInDim S100000x64 ![0, 1] bcast_S1x64_S100000x64_0_1) ((broadcastInDim S1x64 ![1] bcast_S64_S1x64_1) b)))

/-- The same aggregation at width 128. -/
def layer128 (n : (⟨S1700000, .f32⟩ : BufTy).Contents (Elt F)) (s : (⟨S1700000, .i32⟩ : BufTy).Contents (Elt F)) (d : (⟨S1700000, .i32⟩ : BufTy).Contents (Elt F)) (xw : (⟨S100000x128, .f32⟩ : BufTy).Contents (Elt F)) (b : (⟨S128, .f32⟩ : BufTy).Contents (Elt F)) :
    (⟨S100000x128, .f32⟩ : BufTy).Contents (Elt F) :=
  ((addf) (((fun x i u => Host.scatterAdd scatter_S100000x128_S1700000x1_S1700000x128_1_0_0_1 x i u)) ((broadcastInDim S100000x128 ![] bcast_S_S100000x128) (constant S_ .f32 0x00000000#32)) ((broadcastInDim S1700000x1 ![0] bcast_S1700000_S1700000x1_0) d) ((mulf) ((broadcastInDim S1700000x128 ![0, 1] bcast_S1700000x1_S1700000x128_0_1) ((broadcastInDim S1700000x1 ![0] bcast_S1700000_S1700000x1_0) n)) (((fun x i => Host.gather gather_S100000x128_S1700000x1_S1700000x128_1_0_n_n_0_1_1128 x i)) xw ((broadcastInDim S1700000x1 ![0] bcast_S1700000_S1700000x1_0) ((select) ((cmpi .slt) s ((broadcastInDim S1700000 ![] bcast_S_S1700000) (constantI S_ 32 0#32))) ((addi) s ((broadcastInDim S1700000 ![] bcast_S_S1700000) (constantI S_ 32 100000#32))) s))))) ((broadcastInDim S100000x128 ![0, 1] bcast_S1x128_S100000x128_0_1) ((broadcastInDim S1x128 ![1] bcast_S128_S1x128_1) b)))

/-- The read-out: the rows of `h` named by `ji` (a negative index counting from the end), times the column `wl`, plus `bl`, through the logistic function `1 / (1 + exp (-z))`. -/
def headOf (h : (⟨S100000x128, .f32⟩ : BufTy).Contents (Elt F)) (ji : (⟨S4096, .i32⟩ : BufTy).Contents (Elt F)) (wl : (⟨S128x1, .f32⟩ : BufTy).Contents (Elt F)) (bl : (⟨S1, .f32⟩ : BufTy).Contents (Elt F)) :
    (⟨S4096x1, .f32⟩ : BufTy).Contents (Elt F) :=
  ((Host.divf) ((broadcastInDim S4096x1 ![] bcast_S_S4096x1) (constant S_ .f32 0x3F800000#32)) ((addf) ((broadcastInDim S4096x1 ![] bcast_S_S4096x1) (constant S_ .f32 0x3F800000#32)) ((Host.exp) ((Host.negf) ((addf) (((fun l r => Host.dotGeneral dot_S4096x128_S128x1_S4096x1_1_0_0_1_n_n none l r)) (((fun x i => Host.gather gather_S100000x128_S4096x1_S4096x128_1_0_n_n_0_1_1128 x i)) h ((broadcastInDim S4096x1 ![0] bcast_S4096_S4096x1_0) ((select) ((cmpi .slt) ji ((broadcastInDim S4096 ![] bcast_S_S4096) (constantI S_ 32 0#32))) ((addi) ji ((broadcastInDim S4096 ![] bcast_S_S4096) (constantI S_ 32 100000#32))) ji))) wl) ((broadcastInDim S4096x1 ![0, 1] bcast_S1x1_S4096x1_0_1) ((broadcastInDim S1x1 ![1] bcast_S1_S1x1_1) bl)))))))

end Cert.KernelIdeal.Graph

end
-- ==== Proof.HostStretches.lean ====
/-
  What the program's long-lived buffers hold around its two dense products.

  The edge lists and the edge normalisation are computed before the first product and never written again; the arguments
  are never written at all. So at the entry and at the exit of either product each of them still holds its function of
  the launch memory. Between the products the hidden layer is the first aggregation of the first product's array, and
  after the second product the result is the read-out of the second aggregation of the second product's array.
-/
import proofs.«155823_j16140487098561_2_alg».proof.Proof.Gen.KernelIdeal.Frame
import proofs.«155823_j16140487098561_2_alg».proof.Proof.Graph

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Graph

variable {F : FTy → Type} [FloatOps F]
variable (m : (ℓ : Loc nD τ sig) → Buf (Elt F) ℓ) (ρ : Dev nD → PrngReg)

/-! ## At the first product's entry: three stretches of array operations from the launch memory -/

theorem entry0_main_v31 (c : Dev nD) : W3 m ρ c (Proc.devRef .tc main_v31) = (normOf (srcOf (m ((c : Thread nD τ).loc main_arg1))) (dstOf (m ((c : Thread nD τ).loc main_arg1))) (wgtOf (m ((c : Thread nD τ).loc main_arg3)))) := by
  show StableHlo.after hostOps0_2 (StableHlo.after hostOps0_1 (StableHlo.after hostOps0 (W0 m ρ c))) (Proc.devRef .tc main_v31) = _
  after_results_simp <;> rfl
theorem entry0_main_v5 (c : Dev nD) : W3 m ρ c (Proc.devRef .tc main_v5) = (srcOf (m ((c : Thread nD τ).loc main_arg1))) := by
  show StableHlo.after hostOps0_2 (StableHlo.after hostOps0_1 (StableHlo.after hostOps0 (W0 m ρ c))) (Proc.devRef .tc main_v5) = _
  after_results_simp <;> rfl
theorem entry0_main_v6 (c : Dev nD) : W3 m ρ c (Proc.devRef .tc main_v6) = (dstOf (m ((c : Thread nD τ).loc main_arg1))) := by
  show StableHlo.after hostOps0_2 (StableHlo.after hostOps0_1 (StableHlo.after hostOps0 (W0 m ρ c))) (Proc.devRef .tc main_v6) = _
  after_results_simp <;> rfl
theorem entry0_main_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
theorem entry0_main_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
theorem entry0_main_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
theorem entry0_main_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl
theorem entry0_main_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl
theorem entry0_main_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl
theorem entry0_main_arg8 (c : Dev nD) : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp <;> rfl
theorem entry0_main_arg9 (c : Dev nD) : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp <;> rfl

/-! ## At the first product's exit: only its own three arrays have moved -/

theorem exit0_main_v31 (c : Dev nD) : W4 m ρ c (Proc.devRef .tc main_v31) = (normOf (srcOf (m ((c : Thread nD τ).loc main_arg1))) (dstOf (m ((c : Thread nD τ).loc main_arg1))) (wgtOf (m ((c : Thread nD τ).loc main_arg3)))) :=
  (W4_of_ne m ρ c main_v31 (by decide)).trans (entry0_main_v31 m ρ c)
theorem exit0_main_v5 (c : Dev nD) : W4 m ρ c (Proc.devRef .tc main_v5) = (srcOf (m ((c : Thread nD τ).loc main_arg1))) :=
  (W4_of_ne m ρ c main_v5 (by decide)).trans (entry0_main_v5 m ρ c)
theorem exit0_main_v6 (c : Dev nD) : W4 m ρ c (Proc.devRef .tc main_v6) = (dstOf (m ((c : Thread nD τ).loc main_arg1))) :=
  (W4_of_ne m ρ c main_v6 (by decide)).trans (entry0_main_v6 m ρ c)
theorem exit0_main_arg2 (c : Dev nD) : W4 m ρ c (Proc.devRef .tc main_arg2) = (m ((c : Thread nD τ).loc main_arg2)) :=
  (W4_of_ne m ρ c main_arg2 (by decide)).trans (entry0_main_arg2 m ρ c)
theorem exit0_main_arg5 (c : Dev nD) : W4 m ρ c (Proc.devRef .tc main_arg5) = (m ((c : Thread nD τ).loc main_arg5)) :=
  (W4_of_ne m ρ c main_arg5 (by decide)).trans (entry0_main_arg5 m ρ c)
theorem exit0_main_arg6 (c : Dev nD) : W4 m ρ c (Proc.devRef .tc main_arg6) = (m ((c : Thread nD τ).loc main_arg6)) :=
  (W4_of_ne m ρ c main_arg6 (by decide)).trans (entry0_main_arg6 m ρ c)
theorem exit0_main_arg7 (c : Dev nD) : W4 m ρ c (Proc.devRef .tc main_arg7) = (m ((c : Thread nD τ).loc main_arg7)) :=
  (W4_of_ne m ρ c main_arg7 (by decide)).trans (entry0_main_arg7 m ρ c)
theorem exit0_main_arg8 (c : Dev nD) : W4 m ρ c (Proc.devRef .tc main_arg8) = (m ((c : Thread nD τ).loc main_arg8)) :=
  (W4_of_ne m ρ c main_arg8 (by decide)).trans (entry0_main_arg8 m ρ c)
theorem exit0_main_arg9 (c : Dev nD) : W4 m ρ c (Proc.devRef .tc main_arg9) = (m ((c : Thread nD τ).loc main_arg9)) :=
  (W4_of_ne m ρ c main_arg9 (by decide)).trans (entry0_main_arg9 m ρ c)

/-! ## At the second product's entry: the stretch between the products writes none of these -/

theorem entry1_main_v31 (c : Dev nD) : W5 m ρ c (Proc.devRef .tc main_v31) = (normOf (srcOf (m ((c : Thread nD τ).loc main_arg1))) (dstOf (m ((c : Thread nD τ).loc main_arg1))) (wgtOf (m ((c : Thread nD τ).loc main_arg3)))) := by
  show StableHlo.after hostOps1 (W4 m ρ c) (Proc.devRef .tc main_v31) = _
  after_results_simp
  exact exit0_main_v31 m ρ c
theorem entry1_main_v5 (c : Dev nD) : W5 m ρ c (Proc.devRef .tc main_v5) = (srcOf (m ((c : Thread nD τ).loc main_arg1))) := by
  show StableHlo.after hostOps1 (W4 m ρ c) (Proc.devRef .tc main_v5) = _
  after_results_simp
  exact exit0_main_v5 m ρ c
theorem entry1_main_v6 (c : Dev nD) : W5 m ρ c (Proc.devRef .tc main_v6) = (dstOf (m ((c : Thread nD τ).loc main_arg1))) := by
  show StableHlo.after hostOps1 (W4 m ρ c) (Proc.devRef .tc main_v6) = _
  after_results_simp
  exact exit0_main_v6 m ρ c
theorem entry1_main_arg2 (c : Dev nD) : W5 m ρ c (Proc.devRef .tc main_arg2) = (m ((c : Thread nD τ).loc main_arg2)) := by
  show StableHlo.after hostOps1 (W4 m ρ c) (Proc.devRef .tc main_arg2) = _
  after_results_simp
  exact exit0_main_arg2 m ρ c
theorem entry1_main_arg6 (c : Dev nD) : W5 m ρ c (Proc.devRef .tc main_arg6) = (m ((c : Thread nD τ).loc main_arg6)) := by
  show StableHlo.after hostOps1 (W4 m ρ c) (Proc.devRef .tc main_arg6) = _
  after_results_simp
  exact exit0_main_arg6 m ρ c
theorem entry1_main_arg7 (c : Dev nD) : W5 m ρ c (Proc.devRef .tc main_arg7) = (m ((c : Thread nD τ).loc main_arg7)) := by
  show StableHlo.after hostOps1 (W4 m ρ c) (Proc.devRef .tc main_arg7) = _
  after_results_simp
  exact exit0_main_arg7 m ρ c
theorem entry1_main_arg8 (c : Dev nD) : W5 m ρ c (Proc.devRef .tc main_arg8) = (m ((c : Thread nD τ).loc main_arg8)) := by
  show StableHlo.after hostOps1 (W4 m ρ c) (Proc.devRef .tc main_arg8) = _
  after_results_simp
  exact exit0_main_arg8 m ρ c
theorem entry1_main_arg9 (c : Dev nD) : W5 m ρ c (Proc.devRef .tc main_arg9) = (m ((c : Thread nD τ).loc main_arg9)) := by
  show StableHlo.after hostOps1 (W4 m ρ c) (Proc.devRef .tc main_arg9) = _
  after_results_simp
  exact exit0_main_arg9 m ρ c

/-- The hidden layer before its relu: the first aggregation of whatever the first product left in its output array. -/
theorem entry1_hidden (c : Dev nD) : W5 m ρ c (Proc.devRef .tc main_v48)
    = layer64 (normOf (srcOf (m ((c : Thread nD τ).loc main_arg1))) (dstOf (m ((c : Thread nD τ).loc main_arg1))) (wgtOf (m ((c : Thread nD τ).loc main_arg3)))) (srcOf (m ((c : Thread nD τ).loc main_arg1))) (dstOf (m ((c : Thread nD τ).loc main_arg1))) (W4 m ρ c (Proc.devRef .tc main_v32)) (m ((c : Thread nD τ).loc main_arg5)) := by
  show StableHlo.after hostOps1 (W4 m ρ c) (Proc.devRef .tc main_v48) = _
  after_results_simp
  rw [exit0_main_v31, exit0_main_v5, exit0_main_v6, exit0_main_arg5]
  rfl

/-! ## At the second product's exit -/

theorem exit1_main_v31 (c : Dev nD) : W6 m ρ c (Proc.devRef .tc main_v31) = (normOf (srcOf (m ((c : Thread nD τ).loc main_arg1))) (dstOf (m ((c : Thread nD τ).loc main_arg1))) (wgtOf (m ((c : Thread nD τ).loc main_arg3)))) :=
  (W6_of_ne m ρ c main_v31 (by decide)).trans (entry1_main_v31 m ρ c)
theorem exit1_main_v5 (c : Dev nD) : W6 m ρ c (Proc.devRef .tc main_v5) = (srcOf (m ((c : Thread nD τ).loc main_arg1))) :=
  (W6_of_ne m ρ c main_v5 (by decide)).trans (entry1_main_v5 m ρ c)
theorem exit1_main_v6 (c : Dev nD) : W6 m ρ c (Proc.devRef .tc main_v6) = (dstOf (m ((c : Thread nD τ).loc main_arg1))) :=
  (W6_of_ne m ρ c main_v6 (by decide)).trans (entry1_main_v6 m ρ c)
theorem exit1_main_arg2 (c : Dev nD) : W6 m ρ c (Proc.devRef .tc main_arg2) = (m ((c : Thread nD τ).loc main_arg2)) :=
  (W6_of_ne m ρ c main_arg2 (by decide)).trans (entry1_main_arg2 m ρ c)
theorem exit1_main_arg7 (c : Dev nD) : W6 m ρ c (Proc.devRef .tc main_arg7) = (m ((c : Thread nD τ).loc main_arg7)) :=
  (W6_of_ne m ρ c main_arg7 (by decide)).trans (entry1_main_arg7 m ρ c)
theorem exit1_main_arg8 (c : Dev nD) : W6 m ρ c (Proc.devRef .tc main_arg8) = (m ((c : Thread nD τ).loc main_arg8)) :=
  (W6_of_ne m ρ c main_arg8 (by decide)).trans (entry1_main_arg8 m ρ c)
theorem exit1_main_arg9 (c : Dev nD) : W6 m ρ c (Proc.devRef .tc main_arg9) = (m ((c : Thread nD τ).loc main_arg9)) :=
  (W6_of_ne m ρ c main_arg9 (by decide)).trans (entry1_main_arg9 m ρ c)

/-- The result: the read-out of the second aggregation of whatever the second product left in its output array. -/
theorem result_of_second (c : Dev nD) : W7 m ρ c (Proc.devRef .tc main_v82)
    = headOf (layer128 (normOf (srcOf (m ((c : Thread nD τ).loc main_arg1))) (dstOf (m ((c : Thread nD τ).loc main_arg1))) (wgtOf (m ((c : Thread nD τ).loc main_arg3)))) (srcOf (m ((c : Thread nD τ).loc main_arg1))) (dstOf (m ((c : Thread nD τ).loc main_arg1))) (W6 m ρ c (Proc.devRef .tc main_v49)) (m ((c : Thread nD τ).loc main_arg7))) (m ((c : Thread nD τ).loc main_arg2)) (m ((c : Thread nD τ).loc main_arg8)) (m ((c : Thread nD τ).loc main_arg9)) := by
  show StableHlo.after hostOps2 (W6 m ρ c) (Proc.devRef .tc main_v82) = _
  after_results_simp
  rw [exit1_main_v31, exit1_main_v5, exit1_main_v6, exit1_main_arg2, exit1_main_arg7, exit1_main_arg8, exit1_main_arg9]
  rfl

end Cert.KernelIdeal.Whole

end
-- ==== Proof.Network.lean ====
/-
  The whole network as one function of the ten arguments.

  `out = logistic (H2[ji] · Wl + bl)` with `H2 = A (relu (A (X · W1) + b1) · W2) + b2`, the aggregation `A`, its
  normalisation and the read-out as named in the specification, the two dense products plain matrix products.
-/
import proofs.«155823_j16140487098561_2_alg».proof.Proof.Graph

noncomputable section

namespace Cert.KernelIdeal.Graph

open Idealize.ShloMosaic Idealize.SL.Sem Cert.KernelIdeal Cert.KernelIdeal.Facts₀ Cert.KernelIdeal.Facts

variable {F : FTy → Type} [FloatOps F]

/-- Entrywise `max (·, 0)` of a node-by-64 matrix. -/
def relu64 (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

/-- The network: two normalised aggregations around two dense products, a relu between them, and the read-out. -/
def network (x : (⟨S100000x256, .f32⟩ : BufTy).Contents (Elt F)) (ei : (⟨S2x1600000, .i32⟩ : BufTy).Contents (Elt F)) (ji : (⟨S4096, .i32⟩ : BufTy).Contents (Elt F)) (ec : (⟨S1600000, .f32⟩ : BufTy).Contents (Elt F))
    (w1 : (⟨S256x64, .f32⟩ : BufTy).Contents (Elt F)) (b1 : (⟨S64, .f32⟩ : BufTy).Contents (Elt F)) (w2 : (⟨S64x128, .f32⟩ : BufTy).Contents (Elt F)) (b2 : (⟨S128, .f32⟩ : BufTy).Contents (Elt F))
    (wl : (⟨S128x1, .f32⟩ : BufTy).Contents (Elt F)) (bl : (⟨S1, .f32⟩ : BufTy).Contents (Elt F)) : (⟨S4096x1, .f32⟩ : BufTy).Contents (Elt F) :=
  headOf (layer128 (normOf (srcOf ei) (dstOf ei) (wgtOf ec)) (srcOf ei) (dstOf ei)
    (Host.dotGeneral (DotDims.plain 100000 64 128) none
      (relu64 (layer64 (normOf (srcOf ei) (dstOf ei) (wgtOf ec)) (srcOf ei) (dstOf ei)
        (Host.dotGeneral (DotDims.plain 100000 256 64) none x w1) b1)) w2) b2) ji wl bl

end Cert.KernelIdeal.Graph

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibDotGeneralPlain.lean ====
/-
  A host `dot_general` with the plain dimension numbers, read at an entry, over the extended reals.

  For `DotDims.plain M K N` (an `M × K` left operand, a `K × N` right operand, the left one's columns contracted with
  the right one's rows, no batch axis) entry `(p, q)` of the host's product is `Σ_{k < K} l (p, k) * r (k, q)`, whatever
  the precision attribute: the contraction index has one coordinate, which runs over `Fin K`.
-/
import Idealize.ShloMosaic.PureOps.Ideal.Laws
import Idealize.ShloMosaic.Lib.ValueIdx
import proofs.«155823_j16140487098561_2_alg».proof.Proof.LibMatmulPlain

noncomputable section

open scoped BigOperators

namespace Cert.Lib

open Idealize.ShloMosaic Idealize.ShloMosaic.ValueIdx

/-- ENTRY `(p, q)` OF A PLAIN HOST PRODUCT: the sum over `k : Fin K` of `l (p, k) * r (k, q)`. -/
theorem dotGeneral_plain_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.Lib

end
-- ==== Proof.RegionProduct0.lean ====
/-
  The first grid region of the kernel leaves in its output array the whole matrix product of its two input
  arrays, over the extended reals.

  The region's grid has 25 points. At point t the left window is rows 4000 t … 4000 t + 3999 of the left array
  (100000 × 256), the right window is the whole right array (256 × 64) at every point, and the output window is rows
  4000 t … 4000 t + 3999 of the output array (100000 × 64). The body stores the product of its two blocks accumulated
  into the zero matrix; narrowing the operands to a shorter format is the identity over the extended reals. So what
  point t writes back is rows 4000 t … 4000 t + 3999 of the product of the two arrays, and since the 25 row blocks tile
  the 100000 rows the output array ends holding that product.
-/
import proofs.«155823_j16140487098561_2_alg».proof.Proof.Gen.KernelIdeal.Frame
import proofs.«155823_j16140487098561_2_alg».proof.Proof.LibMatmulPlain
import proofs.«155823_j16140487098561_2_alg».proof.Proof.LibDotGeneralPlain
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's dimension numbers are those of a plain 4000 × 256 by 256 × 64 product. -/
theorem dims0 : dot_S4000x256_S256x64_S4000x64_1_0_0_1_n_n = DotDims.plain 4000 256 64 := rfl

theorem zero_offsets : (![0, 0] : Fin 2 → Nat) = fun _ => 0 := funext fun a => by fin_cases a <;> rfl

/-- ENTRY (p, q) OF WHAT THE BODY STORES: the sum over k of x (p, k) * w (k, q). -/
theorem stored0_apply (x : Vec Ideal S4000x256 .f32) (w : Vec Ideal S256x64 .f32) (p : Fin 4000) (q : Fin 64) :
    k0_pay1 (F := Ideal) x w (ix2 p q) = ∑ k : Fin 256, x (ix2 p k) * w (ix2 k q) := by
  unfold k0_pay1
  rw [dims0]
  exact Cert.Lib.matmul_plain_zero_apply 4000 256 64 none _ _ p q

/-- The printed index maps over the grid: the two row-blocked windows sit at block (t, 0), the right operand's at (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 4000 t … 4000 t + 3999 of its array. -/
theorem lhsBlock0_apply (c : Dev nD) (t : Fin cfg0.N) (p : Fin 4000) (k : Fin 256) (i : S100000x256.Idx)
    (hi0 : (i 0).val = 4000 * t.val + p.val) (hi1 : (i 1).val = k.val) :
    (iblk0 V c 0 t : Vec Ideal S4000x256 .f32) (ix2 p k) = (V c main_arg0 : S100000x256.Idx → Elt Ideal .f32) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 4000 + 1 * p.val = (i 0).val; rw [e0, hi0]; omega
  | ⟨1, _⟩ => show win0_0.index t (1 : Fin 2) * 256 + 1 * k.val = (i 1).val; rw [e1, hi1]; omega

/-- The right window's block at every point is its whole array. -/
theorem rhsBlock0_apply (c : Dev nD) (t : Fin cfg0.N) (k : Fin 256) (q : Fin 64) :
    (iblk0 V c 1 t : Vec Ideal S256x64 .f32) (ix2 k q) = (V c main_arg4 : S256x64.Idx → Elt Ideal .f32) (ix2 k q) := by
  obtain ⟨-, -, e2, e3, -⟩ := idx_facts0 t
  unfold iblk0
  rw [View.read_apply]
  show V c main_arg4 _ = V c main_arg4 _
  congr 1
  funext a
  apply Fin.ext
  match a with
  | ⟨0, _⟩ => show win0_1.index t (0 : Fin 2) * 256 + 1 * k.val = k.val; rw [e2]; omega
  | ⟨1, _⟩ => show win0_1.index t (1 : Fin 2) * 64 + 1 * q.val = q.val; rw [e3]; omega

/-- Where entry (p, q) of the output window's block at point t sits in its array: row 4000 t + p, column q. -/
theorem outBlock0_emb (t : Fin cfg0.N) (p : Fin 4000) (q : Fin 64) (r : Fin 100000) (hr : r.val = 4000 * t.val + p.val) :
    ((cfg0.win 2).blk t).view.emb (ix2 p q) = (ix2 r q : S100000x64.Idx) := by
  obtain ⟨-, -, -, -, e4, e5⟩ := idx_facts0 t
  funext a
  apply Fin.ext
  match a with
  | ⟨0, _⟩ => show win0_2.index t (0 : Fin 2) * 4000 + 1 * p.val = r.val; rw [e4, hr]; omega
  | ⟨1, _⟩ => show win0_2.index t (1 : Fin 2) * 64 + 1 * q.val = q.val; rw [e5]; omega

/-- The whole product of the two arrays: entry (r, q) is the sum over k of X (r, k) * W (k, q). -/
abbrev wholeProduct0 (X : S100000x256.Idx → Elt Ideal .f32) (W : S256x64.Idx → Elt Ideal .f32) : S100000x64.Idx → Elt Ideal .f32 :=
  Host.dotGeneral (F := Ideal) (φ₁ := .f32) (φ₂ := .f32) (DotDims.plain 100000 256 64) none X W

/-- WHAT POINT t WRITES BACK is block t of the whole product of the arrays as the region finds them. -/
theorem flushed0_eq (c : Dev nD) (t : Fin cfg0.N) :
    (dat0 (F := Ideal) V c).flushed 2 t
      = ((cfg0.win 2).blk t).view.read (Elt Ideal) (wholeProduct0 (V c main_arg0) (V c main_arg4)) := by
  show (cfg0.win 2).cut (grid0.coords t) ((dat0 (F := Ideal) V c).after 2 t) = _
  rw [after0_2]
  unfold out0_2
  rw [View.canon_unit_zero zero_offsets]
  simp only [View.ld_unit_zero (S := S4000x256) zero_offsets, View.ld_unit_zero (S := S256x64) zero_offsets]
  funext j
  obtain ⟨p, q, rfl⟩ : ∃ (p : Fin 4000) (q : Fin 64), j = ix2 p q := ⟨j 0, j 1, eq_ix2 j⟩
  have hN : cfg0.N = 25 := N_0
  have ht : t.val < 25 := hN ▸ t.isLt
  let r : Fin 100000 := ⟨4000 * t.val + p.val, by have := p.isLt; omega⟩
  show k0_pay1 (F := Ideal) (iblk0 V c 0 t) (iblk0 V c 1 t) (ix2 p q)
    = wholeProduct0 (V c main_arg0) (V c main_arg4) (((cfg0.win 2).blk t).view.emb (ix2 p q))
  rw [outBlock0_emb t p q r rfl, stored0_apply]
  show _ = Host.dotGeneral (F := Ideal) (φ₁ := .f32) (φ₂ := .f32) (DotDims.plain 100000 256 64) none _ _ (ix2 r q)
  rw [Cert.Lib.dotGeneral_plain_apply]
  refine Finset.sum_congr rfl fun k _ => ?_
  rw [lhsBlock0_apply V c t p k (ix2 r k) rfl rfl, rhsBlock0_apply V c t k q]

/-- An index of the output array is in point t's block iff each coordinate is in the block's range on its axis. -/
theorem mem_outBlock0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v32).slice (win0_2.rect t)).set ↔ _
  rw [View.set_slice_whole, Rect.mem_set_unit]
  exact Iff.rfl

/-- THE BLOCKS TILE THE ROWS: row r of the output array lies in the block of point r / 4000, which writes back. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  have ht : t.val = (i 0).val / 4000 := rfl
  obtain ⟨-, -, -, -, e4, e5⟩ := idx_facts0 t
  refine ⟨t, flush0_2 t, ?_⟩
  rw [mem_outBlock0]
  intro a
  match a with
  | ⟨0, _⟩ => show win0_2.index t (0 : Fin 2) * 4000 ≤ (i 0).val ∧ (i 0).val < win0_2.index t (0 : Fin 2) * 4000 + 4000; rw [e4, ht]; omega
  | ⟨1, _⟩ => show win0_2.index t (1 : Fin 2) * 64 ≤ (i 1).val ∧ (i 1).val < win0_2.index t (1 : Fin 2) * 64 + 64; rw [e5]; omega

/-- THE OUTPUT ARRAY AFTER THE REGION is the whole product of the two input arrays as the region finds them. -/
theorem product0 (c : Dev nD) :
    (dat0 (F := Ideal) V c).arrAt 2 cfg0.N
      = Host.dotGeneral (F := Ideal) (φ₁ := .f32) (φ₂ := .f32) (DotDims.plain 100000 256 64) none (V c main_arg0) (V c main_arg4) :=
  (dat0 (F := Ideal) V c).arrAt_eq_of_cover 2 (wholeProduct0 (V c main_arg0) (V c main_arg4)) (fun t _ => flushed0_eq V c t) cover0

end Cert.KernelIdeal.RegionValue
end
-- ==== Proof.RegionProduct1.lean ====
/-
  The second grid region of the kernel leaves in its output array the matrix product of the entrywise maximum
  with zero of its left input array by its right input array, over the extended reals.

  The region's grid has 25 points. At point t the left window is rows 4000 t … 4000 t + 3999 of the left array
  (100000 × 64), the right window is the whole right array (64 × 128) at every point, and the output window is rows
  4000 t … 4000 t + 3999 of the output array (100000 × 128). The body takes the maximum of each entry of its left block
  with zero (a reshape to the same shape is the identity), and stores the product of the result by its right block
  accumulated into the zero matrix; narrowing the operands to a shorter format is the identity over the extended
  reals. So what point t writes back is rows 4000 t … 4000 t + 3999 of the product of max(H, 0) by W, and since the 25
  row blocks tile the 100000 rows the output array ends holding that product.
-/
import proofs.«155823_j16140487098561_2_alg».proof.Proof.Gen.KernelIdeal.Frame
import proofs.«155823_j16140487098561_2_alg».proof.Proof.LibMatmulPlain
import proofs.«155823_j16140487098561_2_alg».proof.Proof.LibDotGeneralPlain
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's dimension numbers are those of a plain 4000 × 64 by 64 × 128 product. -/
theorem dims1 : dot_S4000x64_S64x128_S4000x128_1_0_0_1_n_n = DotDims.plain 4000 64 128 := rfl

theorem zero_offsets1 : (![0, 0] : Fin 2 → Nat) = fun _ => 0 := funext fun a => by fin_cases a <;> rfl

/-- The zero the body compares with, as the body spells it. -/
abbrev zero1 : Ideal .f32 := Scalar.ofBits (F := Ideal) .f32 0x00000000#32

/-- ENTRY (p, q) OF WHAT THE BODY STORES: the sum over k of max (x (p, k), 0) * w (k, q). -/
theorem stored1_apply (x : Vec Ideal S4000x64 .f32) (w : Vec Ideal S64x128 .f32) (p : Fin 4000) (q : Fin 128) :
    k1_pay1 (F := Ideal) x w (ix2 p q) = ∑ k : Fin 64, FloatOps.maximumf (x (ix2 p k)) zero1 * w (ix2 k q) := by
  unfold k1_pay1
  rw [dims1, shapeCast_self]
  exact Cert.Lib.matmul_plain_zero_apply 4000 64 128 none _ _ p q

/-- The printed index maps over the grid: the two row-blocked windows sit at block (t, 0), the right operand's at (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left window's block at point t is rows 4000 t … 4000 t + 3999 of its array. -/
theorem lhsBlock1_apply (c : Dev nD) (t : Fin cfg1.N) (p : Fin 4000) (k : Fin 64) (i : S100000x64.Idx)
    (hi0 : (i 0).val = 4000 * t.val + p.val) (hi1 : (i 1).val = k.val) :
    (iblk1 V c 0 t : Vec Ideal S4000x64 .f32) (ix2 p k) = (V c main_v48 : S100000x64.Idx → Elt Ideal .f32) i := by
  obtain ⟨e0, e1, -⟩ := idx_facts1 t
  unfold iblk1
  rw [View.read_apply]
  show V c main_v48 _ = V c main_v48 _
  congr 1
  funext a
  apply Fin.ext
  match a with
  | ⟨0, _⟩ => show win1_0.index t (0 : Fin 2) * 4000 + 1 * p.val = (i 0).val; rw [e0, hi0]; omega
  | ⟨1, _⟩ => show win1_0.index t (1 : Fin 2) * 64 + 1 * k.val = (i 1).val; rw [e1, hi1]; omega

/-- The right window's block at every point is its whole array. -/
theorem rhsBlock1_apply (c : Dev nD) (t : Fin cfg1.N) (k : Fin 64) (q : Fin 128) :
    (iblk1 V c 1 t : Vec Ideal S64x128 .f32) (ix2 k q) = (V c main_arg6 : S64x128.Idx → Elt Ideal .f32) (ix2 k q) := by
  obtain ⟨-, -, e2, e3, -⟩ := idx_facts1 t
  unfold iblk1
  rw [View.read_apply]
  show V c main_arg6 _ = V c main_arg6 _
  congr 1
  funext a
  apply Fin.ext
  match a with
  | ⟨0, _⟩ => show win1_1.index t (0 : Fin 2) * 64 + 1 * k.val = k.val; rw [e2]; omega
  | ⟨1, _⟩ => show win1_1.index t (1 : Fin 2) * 128 + 1 * q.val = q.val; rw [e3]; omega

/-- Where entry (p, q) of the output window's block at point t sits in its array: row 4000 t + p, column q. -/
theorem outBlock1_emb (t : Fin cfg1.N) (p : Fin 4000) (q : Fin 128) (r : Fin 100000) (hr : r.val = 4000 * t.val + p.val) :
    ((cfg1.win 2).blk t).view.emb (ix2 p q) = (ix2 r q : S100000x128.Idx) := by
  obtain ⟨-, -, -, -, e4, e5⟩ := idx_facts1 t
  funext a
  apply Fin.ext
  match a with
  | ⟨0, _⟩ => show win1_2.index t (0 : Fin 2) * 4000 + 1 * p.val = r.val; rw [e4, hr]; omega
  | ⟨1, _⟩ => show win1_2.index t (1 : Fin 2) * 128 + 1 * q.val = q.val; rw [e5]; omega

/-- The left array with every entry replaced by its maximum with zero. -/
abbrev clamped1 (H : S100000x64.Idx → Elt Ideal .f32) : S100000x64.Idx → Ideal .f32 :=
  fun i => FloatOps.maximumf (H i) zero1

/-- The whole product: entry (r, q) is the sum over k of max (H (r, k), 0) * W (k, q). -/
abbrev wholeProduct1 (H : S100000x64.Idx → Elt Ideal .f32) (W : S64x128.Idx → Elt Ideal .f32) : S100000x128.Idx → Elt Ideal .f32 :=
  Host.dotGeneral (F := Ideal) (φ₁ := .f32) (φ₂ := .f32) (DotDims.plain 100000 64 128) none (clamped1 H) W

/-- WHAT POINT t WRITES BACK is block t of the whole product of the arrays as the region finds them. -/
theorem flushed1_eq (c : Dev nD) (t : Fin cfg1.N) :
    (dat1 (F := Ideal) V c).flushed 2 t
      = ((cfg1.win 2).blk t).view.read (Elt Ideal) (wholeProduct1 (V c main_v48) (V c main_arg6)) := by
  show (cfg1.win 2).cut (grid1.coords t) ((dat1 (F := Ideal) V c).after 2 t) = _
  rw [after1_2]
  unfold out1_2
  rw [View.canon_unit_zero zero_offsets1]
  simp only [View.ld_unit_zero (S := S4000x64) zero_offsets1, View.ld_unit_zero (S := S64x128) zero_offsets1]
  funext j
  obtain ⟨p, q, rfl⟩ : ∃ (p : Fin 4000) (q : Fin 128), j = ix2 p q := ⟨j 0, j 1, eq_ix2 j⟩
  have hN : cfg1.N = 25 := N_1
  have ht : t.val < 25 := hN ▸ t.isLt
  let r : Fin 100000 := ⟨4000 * t.val + p.val, by have := p.isLt; omega⟩
  show k1_pay1 (F := Ideal) (iblk1 V c 0 t) (iblk1 V c 1 t) (ix2 p q)
    = wholeProduct1 (V c main_v48) (V c main_arg6) (((cfg1.win 2).blk t).view.emb (ix2 p q))
  rw [outBlock1_emb t p q r rfl, stored1_apply]
  show _ = Host.dotGeneral (F := Ideal) (φ₁ := .f32) (φ₂ := .f32) (DotDims.plain 100000 64 128) none _ _ (ix2 r q)
  rw [Cert.Lib.dotGeneral_plain_apply]
  refine Finset.sum_congr rfl fun k _ => ?_
  show FloatOps.maximumf (iblk1 V c 0 t (ix2 p k)) zero1 * _ = FloatOps.maximumf (V c main_v48 (ix2 r k)) zero1 * _
  rw [lhsBlock1_apply V c t p k (ix2 r k) rfl rfl, rhsBlock1_apply V c t k q]

/-- An index of the output array is in point t's block iff each coordinate is in the block's range on its axis. -/
theorem mem_outBlock1 (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v49).slice (win1_2.rect t)).set ↔ _
  rw [View.set_slice_whole, Rect.mem_set_unit]
  exact Iff.rfl

/-- THE BLOCKS TILE THE ROWS: row r of the output array lies in the block of point r / 4000, which writes back. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  let t : Fin cfg1.N := ⟨(i 0).val / 4000, by rw [hN]; omega⟩
  have ht : t.val = (i 0).val / 4000 := rfl
  obtain ⟨-, -, -, -, e4, e5⟩ := idx_facts1 t
  refine ⟨t, flush1_2 t, ?_⟩
  rw [mem_outBlock1]
  intro a
  match a with
  | ⟨0, _⟩ => show win1_2.index t (0 : Fin 2) * 4000 ≤ (i 0).val ∧ (i 0).val < win1_2.index t (0 : Fin 2) * 4000 + 4000; rw [e4, ht]; omega
  | ⟨1, _⟩ => show win1_2.index t (1 : Fin 2) * 128 ≤ (i 1).val ∧ (i 1).val < win1_2.index t (1 : Fin 2) * 128 + 128; rw [e5]; omega

/-- THE OUTPUT ARRAY AFTER THE REGION is the product of the entrywise maximum with zero of the left input array by the
    right input array, as the region finds them. -/
theorem product1 (c : Dev nD) :
    (dat1 (F := Ideal) V c).arrAt 2 cfg1.N
      = Host.dotGeneral (F := Ideal) (φ₁ := .f32) (φ₂ := .f32) (DotDims.plain 100000 64 128) none
          (fun i => FloatOps.maximumf (V c main_v48 i) (Scalar.ofBits (F := Ideal) .f32 0x00000000#32)) (V c main_arg6) :=
  (dat1 (F := Ideal) V c).arrAt_eq_of_cover 2 (wholeProduct1 (V c main_v48) (V c main_arg6)) (fun t _ => flushed1_eq V c t) cover1

end Cert.KernelIdeal.RegionValue
end
-- ==== Proof.KernelValue.lean ====
/-
  The kernel program's result is the network of its arguments.

  The first dense product leaves `X · W1` in its output array and the second `relu (H) · W2` of the hidden layer `H` it
  finds in its input array; with what the buffers hold around the two products, the last stretch's result is the
  network of the launch memory's argument arrays.
-/
import proofs.«155823_j16140487098561_2_alg».proof.Proof.HostStretches
import proofs.«155823_j16140487098561_2_alg».proof.Proof.Network
import proofs.«155823_j16140487098561_2_alg».proof.Proof.RegionProduct0
import proofs.«155823_j16140487098561_2_alg».proof.Proof.RegionProduct1

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Graph Cert.KernelIdeal.RegionValue

variable (m : (ℓ : Loc nD τ sig) → Buf (Elt Ideal) ℓ) (ρ : Dev nD → PrngReg)

/-- After the first product its output array is the whole product of the first two matrix arguments. -/
theorem exit0_product (c : Dev nD) : W4 m ρ c (Proc.devRef .tc main_v32)
    = Host.dotGeneral (F := Ideal) (φ₁ := .f32) (φ₂ := .f32) (DotDims.plain 100000 256 64) none (m ((c : Thread nD τ).loc main_arg0)) (m ((c : Thread nD τ).loc main_arg4)) := by
  refine (W4_arr m ρ c 2).trans ((product0 (V3 m ρ) c).trans ?_)
  show Host.dotGeneral (F := Ideal) (φ₁ := .f32) (φ₂ := .f32) (DotDims.plain 100000 256 64) none
    (W3 m ρ c (Proc.devRef .tc main_arg0)) (W3 m ρ c (Proc.devRef .tc main_arg4)) = _
  rw [entry0_main_arg0, entry0_main_arg4]

/-- After the second product its output array is `relu (H) · W2`, `H` the hidden layer. -/
theorem exit1_product (c : Dev nD) : W6 m ρ c (Proc.devRef .tc main_v49)
    = Host.dotGeneral (F := Ideal) (φ₁ := .f32) (φ₂ := .f32) (DotDims.plain 100000 64 128) none
        (relu64 (layer64 (normOf (srcOf (m ((c : Thread nD τ).loc main_arg1))) (dstOf (m ((c : Thread nD τ).loc main_arg1))) (wgtOf (m ((c : Thread nD τ).loc main_arg3)))) (srcOf (m ((c : Thread nD τ).loc main_arg1))) (dstOf (m ((c : Thread nD τ).loc main_arg1)))
          (Host.dotGeneral (F := Ideal) (φ₁ := .f32) (φ₂ := .f32) (DotDims.plain 100000 256 64) none (m ((c : Thread nD τ).loc main_arg0)) (m ((c : Thread nD τ).loc main_arg4))) (m ((c : Thread nD τ).loc main_arg5))))
        (m ((c : Thread nD τ).loc main_arg6)) := by
  refine (W6_arr m ρ c 2).trans ((product1 (V5 m ρ) c).trans ?_)
  show Host.dotGeneral (F := Ideal) (φ₁ := .f32) (φ₂ := .f32) (DotDims.plain 100000 64 128) none
    (relu64 (W5 m ρ c (Proc.devRef .tc main_v48))) (W5 m ρ c (Proc.devRef .tc main_arg6)) = _
  rw [entry1_hidden, exit0_product, entry1_main_arg6]

/-- The result buffer after the last stretch: the network of the argument arrays. -/
theorem kernel_network (c : Dev nD) : W7 m ρ c (Proc.devRef .tc main_v82)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [result_of_second, exit1_product]
  rfl

end Cert.KernelIdeal.Whole

end
-- ==== Proof.RefSide.lean ====
/-
  The reference program read as the shared graph convolution around two dense products.

  The reference computes the edge lists and the edge normalisation twice, once per layer, by the same operations of the
  same arguments: both copies are the one function named in the specification. Stage by stage its result is then
  the read-out of the second aggregation of `relu (first aggregation of X · W1) · W2`, every piece the very composition
  of array operations the specification names, so each equation below holds by unfolding the definitions.
-/
import proofs.«155823_j16140487098561_2_alg».proof.Proof.Gen.ReferenceIdeal.Run
import proofs.«155823_j16140487098561_2_alg».proof.Proof.Gen.ReferenceIdeal.Read
import proofs.«155823_j16140487098561_2_alg».proof.Proof.Graph

set_option maxRecDepth 16384

noncomputable section

namespace Cert.ReferenceIdeal.RefValue

open Idealize.ShloMosaic Idealize.SL.Sem Cert.ReferenceIdeal Cert.ReferenceIdeal.Read Cert.KernelIdeal.Graph

variable {F : FTy → Type} [FloatOps F]

/-! ## The edge lists and the normalisation, first and second copy -/

theorem src_first (x1 : (⟨S2x1600000, .i32⟩ : BufTy).Contents (Elt F)) : val_main_v6 (F := F) x1 = srcOf x1 := rfl
theorem dst_first (x1 : (⟨S2x1600000, .i32⟩ : BufTy).Contents (Elt F)) : val_main_v7 (F := F) x1 = dstOf x1 := rfl
theorem wgt_first (x3 : (⟨S1600000, .f32⟩ : BufTy).Contents (Elt F)) : val_main_v9 (F := F) x3 = wgtOf x3 := rfl
theorem src_second (x1 : (⟨S2x1600000, .i32⟩ : BufTy).Contents (Elt F)) : val_main_v52 (F := F) x1 = srcOf x1 := rfl
theorem dst_second (x1 : (⟨S2x1600000, .i32⟩ : BufTy).Contents (Elt F)) : val_main_v53 (F := F) x1 = dstOf x1 := rfl
theorem wgt_second (x3 : (⟨S1600000, .f32⟩ : BufTy).Contents (Elt F)) : val_main_v55 (F := F) x3 = wgtOf x3 := rfl
theorem norm_first (x1 : (⟨S2x1600000, .i32⟩ : BufTy).Contents (Elt F)) (x3 : (⟨S1600000, .f32⟩ : BufTy).Contents (Elt F)) : val_main_v32 (F := F) x1 x3 = (normOf (srcOf x1) (dstOf x1) (wgtOf x3)) := rfl
theorem norm_second (x1 : (⟨S2x1600000, .i32⟩ : BufTy).Contents (Elt F)) (x3 : (⟨S1600000, .f32⟩ : BufTy).Contents (Elt F)) : val_main_v78 (F := F) x1 x3 = (normOf (srcOf x1) (dstOf x1) (wgtOf x3)) := rfl

/-! ## The two layers and the read-out -/

/-- The hidden layer before its relu is the first aggregation of the reference's first product. -/
theorem hidden_eq (x0 : (⟨S100000x256, .f32⟩ : BufTy).Contents (Elt F)) (x1 : (⟨S2x1600000, .i32⟩ : BufTy).Contents (Elt F)) (x3 : (⟨S1600000, .f32⟩ : BufTy).Contents (Elt F)) (x4 : (⟨S256x64, .f32⟩ : BufTy).Contents (Elt F)) (x5 : (⟨S64, .f32⟩ : BufTy).Contents (Elt F)) :
    val_main_v48 (F := F) x0 x1 x3 x4 x5 = layer64 (normOf (srcOf x1) (dstOf x1) (wgtOf x3)) (srcOf x1) (dstOf x1) (val_main_v4 (F := F) x0 x4) x5 := rfl

/-- The second layer is the second aggregation of the reference's second product. -/
theorem second_eq (x0 : (⟨S100000x256, .f32⟩ : BufTy).Contents (Elt F)) (x1 : (⟨S2x1600000, .i32⟩ : BufTy).Contents (Elt F)) (x3 : (⟨S1600000, .f32⟩ : BufTy).Contents (Elt F)) (x4 : (⟨S256x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) :
    val_main_v94 (F := F) x0 x1 x3 x4 x5 x6 x7 = layer128 (normOf (srcOf x1) (dstOf x1) (wgtOf x3)) (srcOf x1) (dstOf x1) (val_main_v50 (F := F) x0 x1 x3 x4 x5 x6) x7 := rfl

/-- The result is the read-out of the second layer. -/
theorem result_eq (x0 : (⟨S100000x256, .f32⟩ : BufTy).Contents (Elt F)) (x1 : (⟨S2x1600000, .i32⟩ : BufTy).Contents (Elt F)) (x2 : (⟨S4096, .i32⟩ : BufTy).Contents (Elt F)) (x3 : (⟨S1600000, .f32⟩ : BufTy).Contents (Elt F)) (x4 : (⟨S256x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x1, .f32⟩ : BufTy).Contents (Elt F)) (x9 : (⟨S1, .f32⟩ : BufTy).Contents (Elt F)) :
    val_main_v111 (F := F) x0 x1 x2 x3 x4 x5 x6 x7 x8 x9 = headOf (val_main_v94 (F := F) x0 x1 x3 x4 x5 x6 x7) x2 x8 x9 := rfl

end Cert.ReferenceIdeal.RefValue

end
-- ==== Proof.RefNetwork.lean ====
/-
  The reference's result is the network of its arguments.

  Its two products are the host's matrix products with the plain dimension numbers, its relu the entrywise maximum with
  a broadcast zero, and everything around them the shared aggregations: the composition is the network, by unfolding.
-/
import proofs.«155823_j16140487098561_2_alg».proof.Proof.RefSide
import proofs.«155823_j16140487098561_2_alg».proof.Proof.Network

set_option maxRecDepth 16384

noncomputable section

namespace Cert.ReferenceIdeal.RefValue

open Idealize.ShloMosaic Idealize.SL.Sem Cert.ReferenceIdeal Cert.ReferenceIdeal.Read Cert.KernelIdeal.Graph

variable {F : FTy → Type} [FloatOps F]

/-- The reference's last stage, as a function of the ten arguments, is the network. -/
theorem ref_network (x0 : (⟨S100000x256, .f32⟩ : BufTy).Contents (Elt F)) (x1 : (⟨S2x1600000, .i32⟩ : BufTy).Contents (Elt F)) (x2 : (⟨S4096, .i32⟩ : BufTy).Contents (Elt F)) (x3 : (⟨S1600000, .f32⟩ : BufTy).Contents (Elt F)) (x4 : (⟨S256x64, .f32⟩ : BufTy).Contents (Elt F)) (x5 : (⟨S64, .f32⟩ : BufTy).Contents (Elt F)) (x6 : (⟨S64x128, .f32⟩ : BufTy).Contents (Elt F)) (x7 : (⟨S128, .f32⟩ : BufTy).Contents (Elt F)) (x8 : (⟨S128x1, .f32⟩ : BufTy).Contents (Elt F)) (x9 : (⟨S1, .f32⟩ : BufTy).Contents (Elt F)) :
    val_main_v111 (F := F) x0 x1 x2 x3 x4 x5 x6 x7 x8 x9 = network x0 x1 x2 x3 x4 x5 x6 x7 x8 x9 := rfl

/-- The term the reference's run ends its result at is the network of the launch memory's argument arrays. -/
theorem res_network (m : (ℓ : Loc nD τ sig) → Buf (Elt F) ℓ) (c : Dev nD) :
    Cert.ReferenceIdeal.Value.res_main_v111 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) :=
  (val_main_v111_eq m c).trans (ref_network _ _ _ _ _ _ _ _ _ _)

end Cert.ReferenceIdeal.RefValue

end
-- ==== Proof.lean ====
/-
  The certificate's five claims.

  The kernel and the reference both compute a two-layer graph convolution with a logistic read-out,
    out = logistic (H2[ji] · Wl + bl),   H2 = A (relu (A (X · W1) + b1) · W2) + b2,
  `A` the normalised aggregation over the edges with one self-loop per node. The reference does everything by array
  operations; the kernel does the two dense products `X · W1` and `relu (H) · W2` on a grid of 25 row blocks each —
  the relu inside the second — and everything else by the same array operations.

  Over the extended reals a change of float format is the identity, so each block of a dense product is the rows
  [4000 t, 4000 t + 4000) of the whole matrix product, and the 25 blocks tile the rows: each product's output array is
  the whole product. Around the products the two programs apply the same operations to the same arrays (the reference
  recomputes the edge normalisation for its second layer, from the same arguments). Both results are therefore the one
  function `network` of the ten arguments, and the claim needs no property of the inputs beyond their agreement.

  The three frames are the generated frame runs (the reference's is its run with the result dropped); the kernel's
  idealization rewrote no operation, so `preserves` is trivial.
-/
import proofs.«155823_j16140487098561_2_alg».proof.Defs
import proofs.«155823_j16140487098561_2_alg».proof.Proof.Gen.Kernel
import proofs.«155823_j16140487098561_2_alg».proof.Proof.Gen.Kernel.Frame
import proofs.«155823_j16140487098561_2_alg».proof.Proof.Gen.KernelIdeal
import proofs.«155823_j16140487098561_2_alg».proof.Proof.Gen.KernelIdeal.Frame
import proofs.«155823_j16140487098561_2_alg».proof.Proof.Gen.ReferenceIdeal
import proofs.«155823_j16140487098561_2_alg».proof.Proof.Gen.ReferenceIdeal.Run
import proofs.«155823_j16140487098561_2_alg».proof.Proof.Gen.Pre_finite_inputs
import proofs.«155823_j16140487098561_2_alg».proof.Proof.Whole
import proofs.«155823_j16140487098561_2_alg».proof.Proof.KernelValue
import proofs.«155823_j16140487098561_2_alg».proof.Proof.RefNetwork
import Idealize.ShloMosaic.Adequacy
import Idealize.ShloMosaic.Init

noncomputable section

namespace Cert.Proof

open Idealize.ShloMosaic Idealize.ShloMosaic.TcCoe Idealize.SL.Sem
open Cert.KernelIdeal.Graph

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of the arguments in their result: the kernel by its run with every
    buffer named and the value of its result buffer, the reference by its run read back; the arguments agree. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(Cert.KernelIdeal.Whole.final_at m ρ h c Cert.KernelIdeal.main_v82 (by decide)).trans (Cert.KernelIdeal.Whole.kernel_network m ρ c),
       (Cert.KernelIdeal.Whole.final_at m ρ h c Cert.KernelIdeal.main_arg0 (by decide)).trans (Cert.KernelIdeal.Gen.W7_main_arg0 m ρ c),
       (Cert.KernelIdeal.Whole.final_at m ρ h c Cert.KernelIdeal.main_arg1 (by decide)).trans (Cert.KernelIdeal.Gen.W7_main_arg1 m ρ c),
       (Cert.KernelIdeal.Whole.final_at m ρ h c Cert.KernelIdeal.main_arg2 (by decide)).trans (Cert.KernelIdeal.Gen.W7_main_arg2 m ρ c),
       (Cert.KernelIdeal.Whole.final_at m ρ h c Cert.KernelIdeal.main_arg3 (by decide)).trans (Cert.KernelIdeal.Gen.W7_main_arg3 m ρ c),
       (Cert.KernelIdeal.Whole.final_at m ρ h c Cert.KernelIdeal.main_arg4 (by decide)).trans (Cert.KernelIdeal.Gen.W7_main_arg4 m ρ c),
       (Cert.KernelIdeal.Whole.final_at m ρ h c Cert.KernelIdeal.main_arg5 (by decide)).trans (Cert.KernelIdeal.Gen.W7_main_arg5 m ρ c),
       (Cert.KernelIdeal.Whole.final_at m ρ h c Cert.KernelIdeal.main_arg6 (by decide)).trans (Cert.KernelIdeal.Gen.W7_main_arg6 m ρ c),
       (Cert.KernelIdeal.Whole.final_at m ρ h c Cert.KernelIdeal.main_arg7 (by decide)).trans (Cert.KernelIdeal.Gen.W7_main_arg7 m ρ c),
       (Cert.KernelIdeal.Whole.final_at m ρ h c Cert.KernelIdeal.main_arg8 (by decide)).trans (Cert.KernelIdeal.Gen.W7_main_arg8 m ρ c),
       (Cert.KernelIdeal.Whole.final_at m ρ h c Cert.KernelIdeal.main_arg9 (by decide)).trans (Cert.KernelIdeal.Gen.W7_main_arg9 m ρ c)⟩)
      (Cert.KernelIdeal.Whole.run_buffers m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_network, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
